-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : IVec S50000 32) (main_arg3 : FVec F S128x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x128 : Shape := ⟨2, ![50000, 128]⟩
abbrev S2x625000 : Shape := ⟨2, ![2, 625000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S50000x1 : Shape := ⟨2, ![50000, 1]⟩
abbrev S675000x128 : Shape := ⟨2, ![675000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 104
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x625000, .i32⟩
  | .hbm, ⟨9, _⟩ => ⟨S625000, .i32⟩
  | .hbm, ⟨10, _⟩ => ⟨S675000, .i32⟩
  | .hbm, ⟨11, _⟩ => ⟨S1x625000, .i32⟩
  | .hbm, ⟨12, _⟩ => ⟨S625000, .i32⟩
  | .hbm, ⟨13, _⟩ => ⟨S675000, .i32⟩
  | .hbm, ⟨14, _⟩ => ⟨S_, .f32⟩
  | .hbm, ⟨15, _⟩ => ⟨S675000, .f32⟩
  | .hbm, ⟨16, _⟩ => ⟨S_, .f32⟩
  | .hbm, ⟨17, _⟩ => ⟨S50000, .f32⟩
  | .hbm, ⟨18, _⟩ => ⟨S675000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S675000, .i32⟩
  | .hbm, ⟨33, _⟩ => ⟨S675000, .i1⟩
  | .hbm, ⟨34, _⟩ => ⟨S_, .i32⟩
  | .hbm, ⟨35, _⟩ => ⟨S675000, .i32⟩
  | .hbm, ⟨36, _⟩ => ⟨S675000, .i32⟩
  | .hbm, ⟨37, _⟩ => ⟨S675000, .i32⟩
  | .hbm, ⟨38, _⟩ => ⟨S675000x1, .i32⟩
  | .hbm, ⟨39, _⟩ => ⟨S675000x128, .f32⟩
  | .hbm, ⟨40, _⟩ => ⟨S_, .f32⟩
  | .hbm, ⟨41, _⟩ => ⟨S50000x128, .f32⟩
  | .hbm, ⟨42, _⟩ => ⟨S675000x1, .i32⟩
  | .hbm, ⟨43, _⟩ => ⟨S50000x128, .f32⟩
  | .hbm, ⟨44, _⟩ => ⟨S1x256, .f32⟩
  | .hbm, ⟨45, _⟩ => ⟨S50000x256, .f32⟩
  | .hbm, ⟨46, _⟩ => ⟨S50000x128, .f32⟩
  | .hbm, ⟨47, _⟩ => ⟨S_, .i32⟩
  | .hbm, ⟨48, _⟩ => ⟨S675000, .i32⟩
  | .hbm, ⟨49, _⟩ => ⟨S675000, .i1⟩
  | .hbm, ⟨50, _⟩ => ⟨S_, .i32⟩
  | .hbm, ⟨51, _⟩ => ⟨S675000, .i32⟩
  | .hbm, ⟨52, _⟩ => ⟨S675000, .i32⟩
  | .hbm, ⟨53, _⟩ => ⟨S675000, .i32⟩
  | .hbm, ⟨54, _⟩ => ⟨S675000x1, .i32⟩
  | .hbm, ⟨55, _⟩ => ⟨S675000, .f32⟩
  | .hbm, ⟨56, _⟩ => ⟨S_, .i32⟩
  | .hbm, ⟨57, _⟩ => ⟨S675000, .i32⟩
  | .hbm, ⟨58, _⟩ => ⟨S675000, .i1⟩
  | .hbm, ⟨59, _⟩ => ⟨S_, .i32⟩
  | .hbm, ⟨60, _⟩ => ⟨S675000, .i32⟩
  | .hbm, ⟨61, _⟩ => ⟨S675000, .i32⟩
  | .hbm, ⟨62, _⟩ => ⟨S675000, .i32⟩
  | .hbm, ⟨63, _⟩ => ⟨S675000x1, .i32⟩
  | .hbm, ⟨64, _⟩ => ⟨S675000, .f32⟩
  | .hbm, ⟨65, _⟩ => ⟨S675000, .f32⟩
  | .hbm, ⟨66, _⟩ => ⟨S_, .i32⟩
  | .hbm, ⟨67, _⟩ => ⟨S675000, .i32⟩
  | .hbm, ⟨68, _⟩ => ⟨S675000, .i1⟩
  | .hbm, ⟨69, _⟩ => ⟨S_, .i32⟩
  | .hbm, ⟨70, _⟩ => ⟨S675000, .i32⟩
  | .hbm, ⟨71, _⟩ => ⟨S675000, .i32⟩
  | .hbm, ⟨72, _⟩ => ⟨S675000, .i32⟩
  | .hbm, ⟨73, _⟩ => ⟨S675000x1, .i32⟩
  | .hbm, ⟨74, _⟩ => ⟨S675000x128, .f32⟩
  | .hbm, ⟨75, _⟩ => ⟨S675000x1, .f32⟩
  | .hbm, ⟨76, _⟩ => ⟨S675000x128, .f32⟩
  | .hbm, ⟨77, _⟩ => ⟨S675000x128, .f32⟩
  | .hbm, ⟨78, _⟩ => ⟨S_, .f32⟩
  | .hbm, ⟨79, _⟩ => ⟨S50000x128, .f32⟩
  | .hbm, ⟨80, _⟩ => ⟨S675000x1, .i32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S64x128, .f32⟩
  | .hbm, ⟨90, _⟩ => ⟨S50000x1, .i32⟩
  | .hbm, ⟨91, _⟩ => ⟨S64x128, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S64, .f32⟩
  | .hbm, ⟨96, _⟩ => ⟨S50000x1, .i32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64x1, .f32⟩
  | .hbm, ⟨102, _⟩ => ⟨S64x128, .f32⟩
  | .hbm, ⟨103, _⟩ => ⟨S64x128, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x1, .f32⟩
  | .local _ .vmem, ⟨4, _⟩ => ⟨S2000x1, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x128, .f32⟩
  | .local _ .vmem, ⟨11, _⟩ => ⟨S2000x128, .f32⟩
  | .local _ .vmem, ⟨12, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_14 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_16 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  shapeCasts_S50000_S50000x1 : S50000.ShapeCasts S50000x1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  bcast_S675000x1_S675000x128_0_1 : S675000x1.BroadcastsInDim S675000x128 (![0, 1] : Fin 2 → Fin S675000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S675000x1_S675000_n_0_0_1_wf : ScatterDims.WF S50000 S675000x1 S675000 [] [0] [0] 1
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  gather_S50000_S675000x1_S675000_n_0_n_n_0_1_1_wf : GatherDims.WF S50000 S675000x1 S675000 [] [0] [] [0] [] 1 ![1]
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x625000 : Shape := ⟨2, ![1, 625000]⟩
abbrev S625000 : Shape := ⟨1, ![625000]⟩
abbrev S675000 : Shape := ⟨1, ![675000]⟩
abbrev S_ : Shape := ⟨0, ![]⟩
abbrev S675000x1 : Shape := ⟨2, ![675000, 1]⟩
abbrev S50000x256 : Shape := ⟨2, ![50000, 256]⟩
abbrev S675000x256 : Shape := ⟨2, ![675000, 256]⟩
abbrev S1x256 : Shape := ⟨2, ![1, 256]⟩
abbrev S675000x128 : Shape := ⟨2, ![675000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x625000, .i32⟩
  | .hbm, ⟨9, _⟩ => ⟨S625000, .i32⟩
  | .hbm, ⟨10, _⟩ => ⟨S675000, .i32⟩
  | .hbm, ⟨11, _⟩ => ⟨S1x625000, .i32⟩
  | .hbm, ⟨12, _⟩ => ⟨S625000, .i32⟩
  | .hbm, ⟨13, _⟩ => ⟨S675000, .i32⟩
  | .hbm, ⟨14, _⟩ => ⟨S_, .f32⟩
  | .hbm, ⟨15, _⟩ => ⟨S675000, .f32⟩
  | .hbm, ⟨16, _⟩ => ⟨S_, .f32⟩
  | .hbm, ⟨17, _⟩ => ⟨S50000, .f32⟩
  | .hbm, ⟨18, _⟩ => ⟨S675000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S675000, .i32⟩
  | .hbm, ⟨30, _⟩ => ⟨S675000, .i1⟩
  | .hbm, ⟨31, _⟩ => ⟨S_, .i32⟩
  | .hbm, ⟨32, _⟩ => ⟨S675000, .i32⟩
  | .hbm, ⟨33, _⟩ => ⟨S675000, .i32⟩
  | .hbm, ⟨34, _⟩ => ⟨S675000, .i32⟩
  | .hbm, ⟨35, _⟩ => ⟨S675000x1, .i32⟩
  | .hbm, ⟨36, _⟩ => ⟨S675000, .f32⟩
  | .hbm, ⟨37, _⟩ => ⟨S_, .i32⟩
  | .hbm, ⟨38, _⟩ => ⟨S675000, .i32⟩
  | .hbm, ⟨39, _⟩ => ⟨S675000, .i1⟩
  | .hbm, ⟨40, _⟩ => ⟨S_, .i32⟩
  | .hbm, ⟨41, _⟩ => ⟨S675000, .i32⟩
  | .hbm, ⟨42, _⟩ => ⟨S675000, .i32⟩
  | .hbm, ⟨43, _⟩ => ⟨S675000, .i32⟩
  | .hbm, ⟨44, _⟩ => ⟨S675000x1, .i32⟩
  | .hbm, ⟨45, _⟩ => ⟨S675000, .f32⟩
  | .hbm, ⟨46, _⟩ => ⟨S675000, .f32⟩
  | .hbm, ⟨47, _⟩ => ⟨S50000x256, .f32⟩
  | .hbm, ⟨48, _⟩ => ⟨S_, .i32⟩
  | .hbm, ⟨49, _⟩ => ⟨S675000, .i32⟩
  | .hbm, ⟨50, _⟩ => ⟨S675000, .i1⟩
  | .hbm, ⟨51, _⟩ => ⟨S_, .i32⟩
  | .hbm, ⟨52, _⟩ => ⟨S675000, .i32⟩
  | .hbm, ⟨53, _⟩ => ⟨S675000, .i32⟩
  | .hbm, ⟨54, _⟩ => ⟨S675000, .i32⟩
  | .hbm, ⟨55, _⟩ => ⟨S675000x1, .i32⟩
  | .hbm, ⟨56, _⟩ => ⟨S675000x256, .f32⟩
  | .hbm, ⟨57, _⟩ => ⟨S675000x1, .f32⟩
  | .hbm, ⟨58, _⟩ => ⟨S675000x256, .f32⟩
  | .hbm, ⟨59, _⟩ => ⟨S675000x256, .f32⟩
  | .hbm, ⟨60, _⟩ => ⟨S_, .f32⟩
  | .hbm, ⟨61, _⟩ => ⟨S50000x256, .f32⟩
  | .hbm, ⟨62, _⟩ => ⟨S675000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x128, .f32⟩
  | .hbm, ⟨71, _⟩ => ⟨S_, .i32⟩
  | .hbm, ⟨72, _⟩ => ⟨S675000, .i32⟩
  | .hbm, ⟨73, _⟩ => ⟨S675000, .i1⟩
  | .hbm, ⟨74, _⟩ => ⟨S_, .i32⟩
  | .hbm, ⟨75, _⟩ => ⟨S675000, .i32⟩
  | .hbm, ⟨76, _⟩ => ⟨S675000, .i32⟩
  | .hbm, ⟨77, _⟩ => ⟨S675000, .i32⟩
  | .hbm, ⟨78, _⟩ => ⟨S675000x1, .i32⟩
  | .hbm, ⟨79, _⟩ => ⟨S675000x128, .f32⟩
  | .hbm, ⟨80, _⟩ => ⟨S675000x1, .f32⟩
  | .hbm, ⟨81, _⟩ => ⟨S675000x128, .f32⟩
  | .hbm, ⟨82, _⟩ => ⟨S675000x128, .f32⟩
  | .hbm, ⟨83, _⟩ => ⟨S_, .f32⟩
  | .hbm, ⟨84, _⟩ => ⟨S50000x128, .f32⟩
  | .hbm, ⟨85, _⟩ => ⟨S675000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S64x128, .f32⟩
  | .hbm, ⟨95, _⟩ => ⟨S50000x1, .i32⟩
  | .hbm, ⟨96, _⟩ => ⟨S64x128, .f32⟩
  | .hbm, ⟨97, _⟩ => ⟨S_, .f32⟩
  | .hbm, ⟨98, _⟩ => ⟨S50000, .f32⟩
  | .hbm, ⟨99, _⟩ => ⟨S_, .f32⟩
  | .hbm, ⟨100, _⟩ => ⟨S64, .f32⟩
  | .hbm, ⟨101, _⟩ => ⟨S50000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_call2_cst : Ref sig .tc := ⟨.hbm, 90, rfl⟩
abbrev main_call2_v0 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_cst_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_15 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  concatenates_S625000_S50000_S675000_d0 : Shape.Concatenates [S625000, S50000] S675000 0
  slices_S2x625000_S1x625000_1_0 : S2x625000.Slices ![1, 0] S1x625000
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x256_0_1 : S675000x1.BroadcastsInDim S675000x256 (![0, 1] : Fin 2 → Fin S675000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x256_S50000x256_1_0_0_1_n_n_wf : DotDims.WF S50000x128 S128x256 S50000x256 [1] [0] [0] [1] [] []
  gather_S50000x256_S675000x1_S675000x256_1_0_n_n_0_1_1256_wf : GatherDims.WF S50000x256 S675000x1 S675000x256 [1] [0] [] [0] [] 1 ![1, 256]
  scatter_S50000x256_S675000x1_S675000x256_1_0_0_1_wf : ScatterDims.WF S50000x256 S675000x1 S675000x256 [1] [0] [0] 1
  dot_S50000x256_S256x128_S50000x128_1_0_0_1_n_n_wf : DotDims.WF S50000x256 S256x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S675000x1_S675000x256_1_0_n_n_0_1_1256 : GatherDims S50000x256 S675000x1 S675000x256 where
  offsetDims := [1]
  collapsedSliceDims := [0]
  operandBatchingDims := []
  startIndicesBatchingDims := []
  startIndexMap := [0]
  indexVectorDim := 1
  sliceSizes := ![1, 256]
  wf := gather_S50000x256_S675000x1_S675000x256_1_0_n_n_0_1_1256_wf
def scatter_S50000x256_S675000x1_S675000x256_1_0_0_1 : ScatterDims S50000x256 S675000x1 S675000x256 where
  updateWindowDims := [1]
  insertedWindowDims := [0]
  scatterDimsToOperandDims := [0]
  indexVectorDim := 1
  wf := scatter_S50000x256_S675000x1_S675000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.Matrices.lean ====
/-
  Two whole-array functions on matrices of extended reals, and each read at an index whose coordinates are known.

  `matProd x w` is the matrix product: entry (p, q) is the sum over j of x (p, j) · w (j, q).
  `layerOut x w d b` is one dense layer with a per-row scale: entry (p, q) is max((x·w)(p, q) · d (p, 0) + b (0, q), 0),
  the scale d a column and the bias b a row.
-/
import Idealize.ShloMosaic.Lib.ValueIdx
import Idealize.ShloMosaic.PureOps.Ideal

open scoped BigOperators

noncomputable section

namespace Cert.Matrices

open Idealize.ShloMosaic Idealize.ShloMosaic.ValueIdx

/-- The product of two matrices of extended reals: entry (p, q) is the sum over j of x (p, j) · w (j, q). -/
def matProd {a k b : ℕ} (x : (⟨2, ![a, k]⟩ : Shape).Idx → EReal) (w : (⟨2, ![k, b]⟩ : Shape).Idx → EReal) :
    (⟨2, ![a, b]⟩ : Shape).Idx → EReal :=
  fun i => ∑ j : Fin k, x (ix2 (⟨(i 0).val, idx2_lt0 i⟩ : Fin a) j) * w (ix2 j (⟨(i 1).val, idx2_lt1 i⟩ : Fin b))

/-- The product read at an index whose coordinates are known. -/
theorem matProd_apply {a k b : ℕ} (x : (⟨2, ![a, k]⟩ : Shape).Idx → EReal) (w : (⟨2, ![k, b]⟩ : Shape).Idx → EReal)
    (i : (⟨2, ![a, b]⟩ : Shape).Idx) (r : Fin a) (s : Fin b) (hr : (i 0).val = r.val) (hs : (i 1).val = s.val) :
    matProd x w i = ∑ j : Fin k, x (ix2 r j) * w (ix2 j s) := by
  unfold matProd
  have e1 : (⟨(i 0).val, idx2_lt0 i⟩ : Fin a) = r := Fin.ext hr
  have e2 : (⟨(i 1).val, idx2_lt1 i⟩ : Fin b) = s := Fin.ext hs
  rw [e1, e2]

/-- A dense layer with a per-row scale: max((x·w)(p, q) · d (p, 0) + b (0, q), 0). -/
def layerOut {a k b : ℕ} (x : (⟨2, ![a, k]⟩ : Shape).Idx → EReal) (w : (⟨2, ![k, b]⟩ : Shape).Idx → EReal)
    (d : (⟨2, ![a, 1]⟩ : Shape).Idx → EReal) (bias : (⟨2, ![1, b]⟩ : Shape).Idx → EReal) :
    (⟨2, ![a, b]⟩ : Shape).Idx → EReal :=
  fun i => FloatOps.maximumf (F := Ideal) (φ := .f32)
    (FloatOps.addf (F := Ideal) (φ := .f32)
      (FloatOps.mulf (F := Ideal) (φ := .f32) (matProd x w i) (d (ix2 (⟨(i 0).val, idx2_lt0 i⟩ : Fin a) (0 : Fin 1))))
      (bias (ix2 (0 : Fin 1) (⟨(i 1).val, idx2_lt1 i⟩ : Fin b))))
    (Scalar.ofBits (F := Ideal) .f32 0x00000000#32)

/-- The layer read at an index whose coordinates are known. -/
theorem layerOut_apply {a k b : ℕ} (x : (⟨2, ![a, k]⟩ : Shape).Idx → EReal) (w : (⟨2, ![k, b]⟩ : Shape).Idx → EReal)
    (d : (⟨2, ![a, 1]⟩ : Shape).Idx → EReal) (bias : (⟨2, ![1, b]⟩ : Shape).Idx → EReal)
    (i : (⟨2, ![a, b]⟩ : Shape).Idx) (r : Fin a) (s : Fin b) (hr : (i 0).val = r.val) (hs : (i 1).val = s.val) :
    layerOut x w d bias i = FloatOps.maximumf (F := Ideal) (φ := .f32)
      (FloatOps.addf (F := Ideal) (φ := .f32)
        (FloatOps.mulf (F := Ideal) (φ := .f32) (∑ j : Fin k, x (ix2 r j) * w (ix2 j s)) (d (ix2 r (0 : Fin 1))))
        (bias (ix2 (0 : Fin 1) s)))
      (Scalar.ofBits (F := Ideal) .f32 0x00000000#32) := by
  unfold layerOut
  have e1 : (⟨(i 0).val, idx2_lt0 i⟩ : Fin a) = r := Fin.ext hr
  have e2 : (⟨(i 1).val, idx2_lt1 i⟩ : Fin b) = s := Fin.ext hs
  rw [matProd_apply x w i r s hr hs, e1, e2]

end Cert.Matrices

end
-- ==== Proof.LeavesDegrees.lean ====
/-
  The first stretch of host operations read back: the edge lists with the self-loops appended (sources, targets), the
  degree comparison and the reciprocal square root of the degrees, as the reference's stages of the edge-list argument.
  Both programs compute these by the same operations, so each buffer's composed term is the reference's stage by
  unfolding.
-/
import proofs.«142025_j41489384080024_2_alg».proof.Proof.KernelRun
import proofs.«142025_j41489384080024_2_alg».proof.Proof.RefRead
import proofs.«142025_j41489384080024_2_alg».proof.Proof.LibReadThrough
import proofs.«142025_j41489384080024_2_alg».proof.Proof.Matrices

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen Cert.Matrices
open Cert.ReferenceIdeal.ReadP

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) := by
  show StableHlo.after hostOps0 (W0 m ρ c) (Proc.devRef .tc main_arg0) = _
  after_results_through <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results_through <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_through <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_through <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_through <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_through <;> rfl

/-- The edges' sources, self-loops appended. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_through <;> rfl
/-- The edges' targets, self-loops appended. -/
theorem W1_v6 (c : Dev nD) : W1 m ρ c (Proc.devRef .tc main_v6) = val_main_v6 (F := Ideal) (m ((c : Thread nD τ).loc main_arg1)) := by
  show StableHlo.after hostOps0 (W0 m ρ c) (Proc.devRef .tc main_v6) = _
  after_results_through <;> rfl
/-- Which nodes have a positive degree. -/
theorem W1_v12 (c : Dev nD) : W1 m ρ c (Proc.devRef .tc main_v12) = val_main_v12 (F := Ideal) (m ((c : Thread nD τ).loc main_arg1)) := by
  show StableHlo.after hostOps0 (W0 m ρ c) (Proc.devRef .tc main_v12) = _
  after_results_through <;> rfl
/-- The degrees' reciprocal square roots. -/
theorem W1_v13 (c : Dev nD) : W1 m ρ c (Proc.devRef .tc main_v13) = val_main_v13 (F := Ideal) (m ((c : Thread nD τ).loc main_arg1)) := by
  show StableHlo.after hostOps0 (W0 m ρ c) (Proc.devRef .tc main_v13) = _
  after_results_through <;> rfl
/-- The zero the factors default to. -/
theorem W1_cst_2 (c : Dev nD) : W1 m ρ c (Proc.devRef .tc main_cst_2) = val_main_cst_2 (F := Ideal) := by
  show StableHlo.after hostOps0 (W0 m ρ c) (Proc.devRef .tc main_cst_2) = _
  after_results_through <;> rfl

end Cert.KernelIdeal.Named

end
-- ==== Proof.LeavesFactors.lean ====
/-
  The outlined selection read back: the nodes' normalisation factors d = (degree > 0 ? degree^(-1/2) : 0) as the
  reference's stage, from the first stretch's buffers kept as opaque leaves; every other buffer passes through.
-/
import proofs.«142025_j41489384080024_2_alg».proof.Proof.LeavesDegrees

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen Cert.Matrices
open Cert.ReferenceIdeal.ReadP

variable (m : (ℓ : Loc nD τ sig) → Buf (Elt Ideal) ℓ) (ρ : Dev nD → PrngReg)

/-! The selection's lines are written through typed references; a typed reference's transport of contents is the
    identity at these four buffers (their types are the values' types). -/
theorem toBuf_v14 (v : (⟨S50000, .f32⟩ : BufTy).Contents (Elt Ideal)) :
    (TRef.of (sig := sig) (T := ⟨S50000, .f32⟩) main_v14).toBuf v = v := rfl
theorem ofBuf_v12 (v : (⟨S50000, .i1⟩ : BufTy).Contents (Elt Ideal)) :
    (TRef.of (sig := sig) (T := ⟨S50000, .i1⟩) main_v12).ofBuf v = v := rfl
theorem ofBuf_v13 (v : (⟨S50000, .f32⟩ : BufTy).Contents (Elt Ideal)) :
    (TRef.of (sig := sig) (T := ⟨S50000, .f32⟩) main_v13).ofBuf v = v := rfl
theorem ofBuf_cst_2 (v : (⟨S_, .f32⟩ : BufTy).Contents (Elt Ideal)) :
    (TRef.of (sig := sig) (T := ⟨S_, .f32⟩) main_cst_2).ofBuf v = v := rfl

/-- The nodes' normalisation factors. -/
theorem W2_v14 (c : Dev nD) : W2 m ρ c (Proc.devRef .tc main_v14) = val_main_v14 (F := Ideal) (m ((c : Thread nD τ).loc main_arg1)) := by
  show StableHlo.after hostOps0_1 (W1 m ρ c) (Proc.devRef .tc main_v14) = _
  generalize hW : W1 m ρ c = Wv
  after_results_through
  subst hW
  simp only [toBuf_v14, ofBuf_v12, ofBuf_v13, ofBuf_cst_2]
  rw [W1_v12, W1_v13, W1_cst_2]
  rfl

theorem W2_arg0 (c : Dev nD) : W2 m ρ c (Proc.devRef .tc main_arg0) = m ((c : Thread nD τ).loc main_arg0) := by
  show StableHlo.after hostOps0_1 (W1 m ρ c) (Proc.devRef .tc main_arg0) = _
  generalize hW : W1 m ρ c = Wv
  after_results_through
  subst hW
  exact W1_arg0 m ρ c
theorem W2_arg2 (c : Dev nD) : W2 m ρ c (Proc.devRef .tc main_arg2) = m ((c : Thread nD τ).loc main_arg2) := by
  show StableHlo.after hostOps0_1 (W1 m ρ c) (Proc.devRef .tc main_arg2) = _
  generalize hW : W1 m ρ c = Wv
  after_results_through
  subst hW
  exact W1_arg2 m ρ c
theorem W2_arg3 (c : Dev nD) : W2 m ρ c (Proc.devRef .tc main_arg3) = m ((c : Thread nD τ).loc main_arg3) := by
  show StableHlo.after hostOps0_1 (W1 m ρ c) (Proc.devRef .tc main_arg3) = _
  generalize hW : W1 m ρ c = Wv
  after_results_through
  subst hW
  exact W1_arg3 m ρ c
theorem W2_arg4 (c : Dev nD) : W2 m ρ c (Proc.devRef .tc main_arg4) = m ((c : Thread nD τ).loc main_arg4) := by
  show StableHlo.after hostOps0_1 (W1 m ρ c) (Proc.devRef .tc main_arg4) = _
  generalize hW : W1 m ρ c = Wv
  after_results_through
  subst hW
  exact W1_arg4 m ρ c
theorem W2_arg5 (c : Dev nD) : W2 m ρ c (Proc.devRef .tc main_arg5) = m ((c : Thread nD τ).loc main_arg5) := by
  show StableHlo.after hostOps0_1 (W1 m ρ c) (Proc.devRef .tc main_arg5) = _
  generalize hW : W1 m ρ c = Wv
  after_results_through
  subst hW
  exact W1_arg5 m ρ c
theorem W2_arg6 (c : Dev nD) : W2 m ρ c (Proc.devRef .tc main_arg6) = m ((c : Thread nD τ).loc main_arg6) := by
  show StableHlo.after hostOps0_1 (W1 m ρ c) (Proc.devRef .tc main_arg6) = _
  generalize hW : W1 m ρ c = Wv
  after_results_through
  subst hW
  exact W1_arg6 m ρ c

theorem W2_v3 (c : Dev nD) : W2 m ρ c (Proc.devRef .tc main_v3) = val_main_v3 (F := Ideal) (m ((c : Thread nD τ).loc main_arg1)) := by
  show StableHlo.after hostOps0_1 (W1 m ρ c) (Proc.devRef .tc main_v3) = _
  generalize hW : W1 m ρ c = Wv
  after_results_through
  subst hW
  exact W1_v3 m ρ c

theorem W2_v6 (c : Dev nD) : W2 m ρ c (Proc.devRef .tc main_v6) = val_main_v6 (F := Ideal) (m ((c : Thread nD τ).loc main_arg1)) := by
  show StableHlo.after hostOps0_1 (W1 m ρ c) (Proc.devRef .tc main_v6) = _
  generalize hW : W1 m ρ c = Wv
  after_results_through
  subst hW
  exact W1_v6 m ρ c

end Cert.KernelIdeal.Named

end
-- ==== Proof.Aggregate.lean ====
/-
  The aggregate the first region multiplies by the weights, as a function of the node features and the edge list:
  the features scaled row by row by the nodes' normalisation factors, the rows gathered at the edges' sources (negative
  indices wrapped) and summed into the edges' targets. The factors, the wrapped source column and the target column are
  the reference's own stages, since both programs compute them by the same operations.
-/
import proofs.«142025_j41489384080024_2_alg».proof.Proof.Gen.KernelIdeal
import proofs.«142025_j41489384080024_2_alg».proof.Proof.RefRead

noncomputable section

namespace Cert.KernelIdeal.Named

open Idealize.ShloMosaic Idealize.ShloMosaic.TcCoe
open Cert.KernelIdeal Cert.KernelIdeal.Gen
open Cert.ReferenceIdeal.ReadP

/-- The aggregate: the features scaled row by row by the factors, gathered at the edges' (wrapped) sources and summed
    into the edges' targets. -/
def aggregate (x0 : FVec Ideal S50000x128 .f32) (x1 : IVec S2x625000 32) : FVec Ideal S50000x128 .f32 :=
  Host.scatterAdd scatter_S50000x128_S675000x1_S675000x128_1_0_0_1
    (broadcastInDim S50000x128 ![] bcast_S_S50000x128 (constant (F := Ideal) S_ .f32 0x00000000#32))
    (val_main_v42 (F := Ideal) x1)
    (Host.gather gather_S50000x128_S675000x1_S675000x128_1_0_n_n_0_1_1128
      (mulf x0 (broadcastInDim S50000x128 ![0, 1] bcast_S50000x1_S50000x128_0_1
        (shapeCast S50000x1 (val_main_v14 (F := Ideal) x1) shapeCasts_S50000_S50000x1)))
      (val_main_v20 (F := Ideal) x1))

end Cert.KernelIdeal.Named

end
-- ==== Proof.LeavesAggregate.lean ====
/-
  The last stretch of host operations before the first region read back, from the earlier buffers kept as opaque leaves:
  the factors as a column, the first layer's bias as a row, and the aggregate (the features scaled row by row by the
  factors, gathered at the edges' wrapped sources and summed into the edges' targets); every other buffer passes through.
-/
import proofs.«142025_j41489384080024_2_alg».proof.Proof.LeavesFactors
import proofs.«142025_j41489384080024_2_alg».proof.Proof.Aggregate

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen Cert.Matrices
open Cert.ReferenceIdeal.ReadP

variable (m : (ℓ : Loc nD τ sig) → Buf (Elt Ideal) ℓ) (ρ : Dev nD → PrngReg)

theorem W3_arg0 (c : Dev nD) : W3 m ρ c (Proc.devRef .tc main_arg0) = m ((c : Thread nD τ).loc main_arg0) := by
  show StableHlo.after hostOps0_2 (W2 m ρ c) (Proc.devRef .tc main_arg0) = _
  generalize hW : W2 m ρ c = Wv
  after_results_through
  subst hW
  exact W2_arg0 m ρ c
theorem W3_arg2 (c : Dev nD) : W3 m ρ c (Proc.devRef .tc main_arg2) = m ((c : Thread nD τ).loc main_arg2) := by
  show StableHlo.after hostOps0_2 (W2 m ρ c) (Proc.devRef .tc main_arg2) = _
  generalize hW : W2 m ρ c = Wv
  after_results_through
  subst hW
  exact W2_arg2 m ρ c
theorem W3_arg3 (c : Dev nD) : W3 m ρ c (Proc.devRef .tc main_arg3) = m ((c : Thread nD τ).loc main_arg3) := by
  show StableHlo.after hostOps0_2 (W2 m ρ c) (Proc.devRef .tc main_arg3) = _
  generalize hW : W2 m ρ c = Wv
  after_results_through
  subst hW
  exact W2_arg3 m ρ c
theorem W3_arg5 (c : Dev nD) : W3 m ρ c (Proc.devRef .tc main_arg5) = m ((c : Thread nD τ).loc main_arg5) := by
  show StableHlo.after hostOps0_2 (W2 m ρ c) (Proc.devRef .tc main_arg5) = _
  generalize hW : W2 m ρ c = Wv
  after_results_through
  subst hW
  exact W2_arg5 m ρ c
theorem W3_arg6 (c : Dev nD) : W3 m ρ c (Proc.devRef .tc main_arg6) = m ((c : Thread nD τ).loc main_arg6) := by
  show StableHlo.after hostOps0_2 (W2 m ρ c) (Proc.devRef .tc main_arg6) = _
  generalize hW : W2 m ρ c = Wv
  after_results_through
  subst hW
  exact W2_arg6 m ρ c

theorem W3_v3 (c : Dev nD) : W3 m ρ c (Proc.devRef .tc main_v3) = val_main_v3 (F := Ideal) (m ((c : Thread nD τ).loc main_arg1)) := by
  show StableHlo.after hostOps0_2 (W2 m ρ c) (Proc.devRef .tc main_v3) = _
  generalize hW : W2 m ρ c = Wv
  after_results_through
  subst hW
  exact W2_v3 m ρ c

theorem W3_v6 (c : Dev nD) : W3 m ρ c (Proc.devRef .tc main_v6) = val_main_v6 (F := Ideal) (m ((c : Thread nD τ).loc main_arg1)) := by
  show StableHlo.after hostOps0_2 (W2 m ρ c) (Proc.devRef .tc main_v6) = _
  generalize hW : W2 m ρ c = Wv
  after_results_through
  subst hW
  exact W2_v6 m ρ c

theorem W3_v14 (c : Dev nD) : W3 m ρ c (Proc.devRef .tc main_v14) = val_main_v14 (F := Ideal) (m ((c : Thread nD τ).loc main_arg1)) := by
  show StableHlo.after hostOps0_2 (W2 m ρ c) (Proc.devRef .tc main_v14) = _
  generalize hW : W2 m ρ c = Wv
  after_results_through
  subst hW
  exact W2_v14 m ρ c

/-- The factors as a column. -/
theorem W3_v15 (c : Dev nD) :
    W3 m ρ c (Proc.devRef .tc main_v15)
      = shapeCast S50000x1 (val_main_v14 (F := Ideal) (m ((c : Thread nD τ).loc main_arg1))) shapeCasts_S50000_S50000x1 := by
  show StableHlo.after hostOps0_2 (W2 m ρ c) (Proc.devRef .tc main_v15) = _
  generalize hW : W2 m ρ c = Wv
  after_results_through
  subst hW
  rw [W2_v14]
  rfl
/-- The first layer's bias as a row. -/
theorem W3_v28 (c : Dev nD) :
    W3 m ρ c (Proc.devRef .tc main_v28) = shapeCast S1x256 (m ((c : Thread nD τ).loc main_arg4)) shapeCasts_S256_S1x256 := by
  show StableHlo.after hostOps0_2 (W2 m ρ c) (Proc.devRef .tc main_v28) = _
  generalize hW : W2 m ρ c = Wv
  after_results_through
  subst hW
  rw [W2_arg4]
  rfl
/-- The aggregate. -/
theorem W3_v27 (c : Dev nD) :
    W3 m ρ c (Proc.devRef .tc main_v27)
      = aggregate (m ((c : Thread nD τ).loc main_arg0)) (m ((c : Thread nD τ).loc main_arg1)) := by
  show StableHlo.after hostOps0_2 (W2 m ρ c) (Proc.devRef .tc main_v27) = _
  generalize hW : W2 m ρ c = Wv
  after_results_through
  subst hW
  rw [W2_v14, W2_v3, W2_v6, W2_arg0]
  rfl

end Cert.KernelIdeal.Named

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.RegionFirst.lean ====
/-
  The first pipelined region (matrix product, per-row scale, bias, rectifier, fused) as one function of the arrays it is
  entered with.

  The grid has 25 points; point t stages rows 2000·t … 2000·t + 1999 of the aggregated features and of the column of
  normalisation factors, the whole weight matrix and the bias row, and writes back the same 2000 rows of the result.
  The body rounds the matrix operands to bf16 (the identity on the extended reals), multiplies into a zero accumulator,
  multiplies every row by its factor, adds the bias row and takes the maximum with zero. So the entry it stores at row p,
  column q of its block is max((Σ_j a (p, j) · w (j, q)) · d (p, 0) + b (0, q), 0). Every row of the result array lies in
  exactly the block of the point that numbers its group of 2000 rows, so after the run the array is that function of the
  entry arrays, whole.
-/
import proofs.«142025_j41489384080024_2_alg».proof.Proof.Gen.KernelIdeal.Frame
import proofs.«142025_j41489384080024_2_alg».proof.Proof.LibMatmul
import proofs.«142025_j41489384080024_2_alg».proof.Proof.Matrices
import proofs.«142025_j41489384080024_2_alg».proof.Proof.LibColumns
import Idealize.ShloMosaic.Lib.Pipeline.Value

set_option maxRecDepth 16384

noncomputable section

namespace Cert.KernelIdeal.FirstRegion

open Idealize.ShloMosaic Idealize.ShloMosaic.TcCoe Idealize.SL.Sem Idealize.ShloMosaic.ValueIdx
open Idealize.ShloMosaic.Pipeline (Dat)
open Cert.KernelIdeal Cert.KernelIdeal.Gen Cert.Matrices

theorem hz : (![0, 0] : Fin 2 → Nat) = fun _ => 0 := funext fun a => by fin_cases a <;> rfl

variable (V : (c : Dev nD) → (b : Ref sig .tc) → Buf (Elt Ideal) ((c : Thread nD τ).loc b))

/-- The body's stored value at row p, column q of a block, from the four loaded blocks. -/
theorem pay_first (x0 : Vec Ideal S2000x128 .f32) (x1 : Vec Ideal S128x256 .f32) (x2 : Vec Ideal S2000x1 .f32)
    (x3 : Vec Ideal S1x256 .f32) (p : Fin 2000) (q : Fin 256) :
    k0_pay1 (F := Ideal) x0 x1 x2 x3 (ix2 p q) = FloatOps.maximumf (F := Ideal) (φ := .f32)
      (FloatOps.addf (F := Ideal) (φ := .f32)
        (FloatOps.mulf (F := Ideal) (φ := .f32) (∑ j : Fin 128, x0 (ix2 p j) * x1 (ix2 j q)) (x2 (ix2 p (0 : Fin 1))))
        (x3 (ix2 (0 : Fin 1) q)))
      (Scalar.ofBits (F := Ideal) .f32 0x00000000#32) := by
  unfold k0_pay1
  rw [shapeCast_self, shapeCast_self, shapeCast_self]
  refine congrArg₂ (FloatOps.maximumf (F := Ideal) (φ := .f32))
    (congrArg₂ (FloatOps.addf (F := Ideal) (φ := .f32))
      (congrArg₂ (FloatOps.mulf (F := Ideal) (φ := .f32)) ?_ ?_) ?_) rfl
  · exact matmul_zero_ix2 dot_S2000x128_S128x256_S2000x256_1_0_0_1_n_n rfl rfl rfl rfl rfl rfl none _ _ p q
  · exact broadcastTo_a1_ab_apply x2 broadcasts_S2000x1_S2000x256 p q
  · exact broadcastTo_apply x3 broadcasts_S1x256_S2000x256 (ix2 p q) (ix2 (0 : Fin 1) q)
      (fun a => match a with | ⟨0, _⟩ => rfl | ⟨1, _⟩ => rfl)

theorem idx_first : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of the layer function of the arrays as the region finds them. -/
theorem flushed_first (c : Dev nD) (t : Fin cfg0.N) :
    (dat0 V c).flushed 4 t = ((cfg0.win 4).blk t).view.read (Elt Ideal)
      (layerOut (V c main_v27) (V c main_arg3) (V c main_v15) (V c main_v28)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x256) hz,
    View.ld_unit_zero (S := S2000x1) hz, View.ld_unit_zero (S := S1x256) hz]
  obtain ⟨e0, e1, e2, e3, e4, e5, e6, e7, e8, e9⟩ := idx_first t
  funext j
  obtain ⟨p, q, rfl⟩ : ∃ (p : Fin 2000) (q : Fin 256), j = ix2 p q := ⟨j 0, j 1, eq_ix2 j⟩
  have ht : t.val < 25 := by have h := t.isLt; have hN : cfg0.N = 25 := N_0; omega
  show k0_pay1 (iblk0 V c 0 t) (iblk0 V c 1 t) (iblk0 V c 2 t) (iblk0 V c 3 t) (ix2 p q)
    = layerOut (V c main_v27) (V c main_arg3) (V c main_v15) (V c main_v28) (((cfg0.win 4).blk t).view.emb (ix2 p q))
  rw [pay_first, layerOut_apply _ _ _ _ _ (⟨t.val * 2000 + p.val, by omega⟩ : Fin 50000) (⟨q.val, by omega⟩ : Fin 256)
    (by show win0_4.index t (0 : Fin 2) * 2000 + 1 * p.val = t.val * 2000 + p.val; omega)
    (by show win0_4.index t (1 : Fin 2) * 256 + 1 * q.val = q.val; omega)]
  have h0 : ∀ j : Fin 128, iblk0 V c 0 t (ix2 p j) = V c main_v27 (ix2 (⟨t.val * 2000 + p.val, by omega⟩ : Fin 50000) j) := by
    intro j
    show V c main_v27 (((cfg0.win 0).blk t).view.emb (ix2 p j)) = _
    refine congrArg (V c main_v27) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * j.val = j.val; omega
  have h1 : ∀ j : Fin 128, iblk0 V c 1 t (ix2 j q) = V c main_arg3 (ix2 j (⟨q.val, by omega⟩ : Fin 256)) := by
    intro j
    show V c main_arg3 (((cfg0.win 1).blk t).view.emb (ix2 j q)) = _
    refine congrArg (V c main_arg3) (funext fun a => Fin.ext ?_)
    match a with
    | ⟨0, _⟩ => show win0_1.index t (0 : Fin 2) * 128 + 1 * j.val = j.val; omega
    | ⟨1, _⟩ => show win0_1.index t (1 : Fin 2) * 256 + 1 * q.val = q.val; omega
  have h2 : iblk0 V c 2 t (ix2 p (0 : Fin 1)) = V c main_v15 (ix2 (⟨t.val * 2000 + p.val, by omega⟩ : Fin 50000) (0 : Fin 1)) := by
    show V c main_v15 (((cfg0.win 2).blk t).view.emb (ix2 p (0 : Fin 1))) = _
    refine congrArg (V c main_v15) (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  have h3 : iblk0 V c 3 t (ix2 (0 : Fin 1) q) = V c main_v28 (ix2 (0 : Fin 1) (⟨q.val, by omega⟩ : Fin 256)) := by
    show V c main_v28 (((cfg0.win 3).blk t).view.emb (ix2 (0 : Fin 1) q)) = _
    refine congrArg (V c main_v28) (funext fun a => Fin.ext ?_)
    match a with
    | ⟨0, _⟩ => show win0_3.index t (0 : Fin 2) * 1 + 1 * 0 = 0; omega
    | ⟨1, _⟩ => show win0_3.index t (1 : Fin 2) * 256 + 1 * q.val = q.val; omega
  rw [h2, h3, Finset.sum_congr rfl fun j _ => by rw [h0 j, h1 j]]

/-- An index of the array is in point t's block iff each coordinate is in the block's range on its axis. -/
theorem mem_blk_first (t : Fin cfg0.N) (i : S50000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v29).slice (win0_4.rect t)).set ↔ _
  rw [View.set_slice_whole, Rect.mem_set_unit]
  exact Iff.rfl

theorem idx_onto_first : ∀ q0 : Fin 25, ∃ t : Fin cfg0.N, win0_4.index t = ![q0.val, 0] :=
  (by decide +kernel : ∀ q0 : Fin 25, ∃ t : Fin grid0.N, win0_4.index t = ![q0.val, 0])

/-- Every row of the array lies in the block of the point that numbers its group of 2000 rows. -/
theorem cover_first (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := idx_onto_first ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk_first]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- THE FIRST REGION'S ARRAY after the run: the layer function of the arrays it was entered with. -/
theorem final_first (c : Dev nD) :
    (dat0 V c).arrAt 4 cfg0.N = layerOut (V c main_v27) (V c main_arg3) (V c main_v15) (V c main_v28) :=
  (dat0 V c).arrAt_eq_of_cover 4 _ (fun t _ => flushed_first V c t) cover_first

end Cert.KernelIdeal.FirstRegion

end
-- ==== Proof.RegionSecond.lean ====
/-
  The second pipelined region (the plain matrix product x1 · W2) as one function of the arrays it is entered with.

  The grid has 25 points; point t stages rows 2000·t … 2000·t + 1999 of the left operand, the whole right operand, and
  writes back the same 2000 rows of the result. The body rounds both operands to bf16 (the identity on the extended
  reals) and multiplies into a zero accumulator, so the entry it stores at row p, column q of its block is the sum over
  j of left (p, j) · right (j, q). Every row of the result array lies in exactly the block of the point that numbers
  its group of 2000 rows, so after the run the array is the matrix product of the entry arrays, whole.
-/
import proofs.«142025_j41489384080024_2_alg».proof.Proof.Gen.KernelIdeal.Frame
import proofs.«142025_j41489384080024_2_alg».proof.Proof.LibMatmul
import proofs.«142025_j41489384080024_2_alg».proof.Proof.Matrices
import Idealize.ShloMosaic.Lib.Pipeline.Value

set_option maxRecDepth 16384

noncomputable section

namespace Cert.KernelIdeal.SecondRegion

open Idealize.ShloMosaic Idealize.ShloMosaic.TcCoe Idealize.SL.Sem Idealize.ShloMosaic.ValueIdx
open Idealize.ShloMosaic.Pipeline (Dat)
open Cert.KernelIdeal Cert.KernelIdeal.Gen Cert.Matrices

theorem hz : (![0, 0] : Fin 2 → Nat) = fun _ => 0 := funext fun a => by fin_cases a <;> rfl

variable (V : (c : Dev nD) → (b : Ref sig .tc) → Buf (Elt Ideal) ((c : Thread nD τ).loc b))

theorem pay_second (x0 : Vec Ideal S2000x256 .f32) (x1 : Vec Ideal S256x128 .f32) (p : Fin 2000) (q : Fin 128) :
    k1_pay1 (F := Ideal) x0 x1 (ix2 p q) = ∑ j : Fin 256, x0 (ix2 p j) * x1 (ix2 j q) := by
  unfold k1_pay1
  rw [shapeCast_self]
  exact matmul_zero_ix2 dot_S2000x256_S256x128_S2000x128_1_0_0_1_n_n rfl rfl rfl rfl rfl rfl none _ _ p q

theorem idx_second : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem flushed_second (c : Dev nD) (t : Fin cfg1.N) :
    (dat1 V c).flushed 2 t = ((cfg1.win 2).blk t).view.read (Elt Ideal) (matProd (V c main_v29) (V c main_arg5)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x128) hz]
  obtain ⟨e0, e1, e2, e3, e4, e5⟩ := idx_second t
  funext j
  obtain ⟨p, q, rfl⟩ : ∃ (p : Fin 2000) (q : Fin 128), j = ix2 p q := ⟨j 0, j 1, eq_ix2 j⟩
  have ht : t.val < 25 := by have h := t.isLt; have hN : cfg1.N = 25 := N_1; omega
  show k1_pay1 (iblk1 V c 0 t) (iblk1 V c 1 t) (ix2 p q)
    = matProd (V c main_v29) (V c main_arg5) (((cfg1.win 2).blk t).view.emb (ix2 p q))
  rw [pay_second, matProd_apply _ _ _ (⟨t.val * 2000 + p.val, by omega⟩ : Fin 50000) (⟨q.val, by omega⟩ : Fin 128)
    (by show win1_2.index t (0 : Fin 2) * 2000 + 1 * p.val = t.val * 2000 + p.val; omega)
    (by show win1_2.index t (1 : Fin 2) * 128 + 1 * q.val = q.val; omega)]
  refine Finset.sum_congr rfl fun j _ => ?_
  have hl : iblk1 V c 0 t (ix2 p j) = V c main_v29 (ix2 (⟨t.val * 2000 + p.val, by omega⟩ : Fin 50000) j) := by
    show V c main_v29 (((cfg1.win 0).blk t).view.emb (ix2 p j)) = _
    refine congrArg (V c main_v29) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * j.val = j.val; omega
  have hr : iblk1 V c 1 t (ix2 j q) = V c main_arg5 (ix2 j (⟨q.val, by omega⟩ : Fin 128)) := by
    show V c main_arg5 (((cfg1.win 1).blk t).view.emb (ix2 j q)) = _
    refine congrArg (V c main_arg5) (funext fun a => Fin.ext ?_)
    match a with
    | ⟨0, _⟩ => show win1_1.index t (0 : Fin 2) * 256 + 1 * j.val = j.val; omega
    | ⟨1, _⟩ => show win1_1.index t (1 : Fin 2) * 128 + 1 * q.val = q.val; omega
  rw [hl, hr]

/-- An index of the array is in point `t`'s block iff each coordinate is in the block's range on its axis. -/
theorem mem_blk_second (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v30).slice (win1_2.rect t)).set ↔ _
  rw [View.set_slice_whole, Rect.mem_set_unit]
  exact Iff.rfl

theorem idx_onto_second : ∀ q0 : Fin 25, ∃ t : Fin cfg1.N, win1_2.index t = ![q0.val, 0] :=
  (by decide +kernel : ∀ q0 : Fin 25, ∃ t : Fin grid1.N, win1_2.index t = ![q0.val, 0])

/-- Every row of the array lies in the block of the point that numbers its group of 2000 rows. -/
theorem cover_second (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto_second ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk_second]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE SECOND REGION'S ARRAY after the run: the product of the arrays it was entered with. -/
theorem final_second (c : Dev nD) :
    (dat1 V c).arrAt 2 cfg1.N = matProd (V c main_v29) (V c main_arg5) :=
  (dat1 V c).arrAt_eq_of_cover 2 _ (fun t _ => flushed_second V c t) cover_second

end Cert.KernelIdeal.SecondRegion

end
-- ==== Proof.KernelLeaves.lean ====
/-
  The two regions' result arrays as functions of the arguments, and the buffers the last host stretch reads beside them.

  The first region's result is the layer function (matrix product, per-row scale, bias, rectifier) of its entry arrays:
  the aggregate, the first weight matrix, the factors as a column, the bias as a row. The second region's result is the
  matrix product of that result with the second weight matrix. A region replaces only its own arrays, so the edge lists,
  the factors and the arguments the last stretch reads are still what the host computed before the first region.
-/
import proofs.«142025_j41489384080024_2_alg».proof.Proof.LeavesAggregate
import proofs.«142025_j41489384080024_2_alg».proof.Proof.RegionFirst
import proofs.«142025_j41489384080024_2_alg».proof.Proof.RegionSecond

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen Cert.Matrices
open Cert.ReferenceIdeal.ReadP

variable (m : (ℓ : Loc nD τ sig) → Buf (Elt Ideal) ℓ) (ρ : Dev nD → PrngReg)

/-! ## The regions' results, and what stays -/

/-- The first region's result: the layer function of its entry arrays. -/
theorem W4_v29 (c : Dev nD) :
    W4 m ρ c (Proc.devRef .tc main_v29)
      = layerOut (aggregate (m ((c : Thread nD τ).loc main_arg0)) (m ((c : Thread nD τ).loc main_arg1)))
          (m ((c : Thread nD τ).loc main_arg3))
          (shapeCast S50000x1 (val_main_v14 (F := Ideal) (m ((c : Thread nD τ).loc main_arg1))) shapeCasts_S50000_S50000x1)
          (shapeCast S1x256 (m ((c : Thread nD τ).loc main_arg4)) shapeCasts_S256_S1x256) := by
  refine (W4_arr m ρ c 4).trans ?_
  rw [FirstRegion.final_first (V3 m ρ) c]
  show layerOut (W3 m ρ c (Proc.devRef .tc main_v27)) (W3 m ρ c (Proc.devRef .tc main_arg3))
    (W3 m ρ c (Proc.devRef .tc main_v15)) (W3 m ρ c (Proc.devRef .tc main_v28)) = _
  rw [W3_v27, W3_arg3, W3_v15, W3_v28]

theorem W4_arg5 (c : Dev nD) : W4 m ρ c (Proc.devRef .tc main_arg5) = m ((c : Thread nD τ).loc main_arg5) :=
  (W4_of_ne m ρ c main_arg5 (by decide)).trans (W3_arg5 m ρ c)

/-- The second region's result: the first region's result times the second weight matrix. -/
theorem W5_v30 (c : Dev nD) :
    W5 m ρ c (Proc.devRef .tc main_v30)
      = matProd (layerOut (aggregate (m ((c : Thread nD τ).loc main_arg0)) (m ((c : Thread nD τ).loc main_arg1)))
          (m ((c : Thread nD τ).loc main_arg3))
          (shapeCast S50000x1 (val_main_v14 (F := Ideal) (m ((c : Thread nD τ).loc main_arg1))) shapeCasts_S50000_S50000x1)
          (shapeCast S1x256 (m ((c : Thread nD τ).loc main_arg4)) shapeCasts_S256_S1x256))
        (m ((c : Thread nD τ).loc main_arg5)) := by
  refine (W5_arr m ρ c 2).trans ?_
  rw [SecondRegion.final_second (V4 m ρ) c]
  show matProd (W4 m ρ c (Proc.devRef .tc main_v29)) (W4 m ρ c (Proc.devRef .tc main_arg5)) = _
  rw [W4_v29, W4_arg5]

theorem W5_v3 (c : Dev nD) :
    W5 m ρ c (Proc.devRef .tc main_v3) = val_main_v3 (F := Ideal) (m ((c : Thread nD τ).loc main_arg1)) :=
  (W5_of_ne m ρ c main_v3 (by decide)).trans ((W4_of_ne m ρ c main_v3 (by decide)).trans (W3_v3 m ρ c))
theorem W5_v6 (c : Dev nD) :
    W5 m ρ c (Proc.devRef .tc main_v6) = val_main_v6 (F := Ideal) (m ((c : Thread nD τ).loc main_arg1)) :=
  (W5_of_ne m ρ c main_v6 (by decide)).trans ((W4_of_ne m ρ c main_v6 (by decide)).trans (W3_v6 m ρ c))
theorem W5_v14 (c : Dev nD) :
    W5 m ρ c (Proc.devRef .tc main_v14) = val_main_v14 (F := Ideal) (m ((c : Thread nD τ).loc main_arg1)) :=
  (W5_of_ne m ρ c main_v14 (by decide)).trans ((W4_of_ne m ρ c main_v14 (by decide)).trans (W3_v14 m ρ c))
theorem W5_arg2 (c : Dev nD) : W5 m ρ c (Proc.devRef .tc main_arg2) = m ((c : Thread nD τ).loc main_arg2) :=
  (W5_of_ne m ρ c main_arg2 (by decide)).trans ((W4_of_ne m ρ c main_arg2 (by decide)).trans (W3_arg2 m ρ c))
theorem W5_arg6 (c : Dev nD) : W5 m ρ c (Proc.devRef .tc main_arg6) = m ((c : Thread nD τ).loc main_arg6) :=
  (W5_of_ne m ρ c main_arg6 (by decide)).trans ((W4_of_ne m ρ c main_arg6 (by decide)).trans (W3_arg6 m ρ c))

end Cert.KernelIdeal.Named

end
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.LibAggregateProject.lean ====
/-
  GENERAL LEMMA: aggregate-then-project equals project-then-aggregate, on extended reals whose entries are real numbers.
  It is the one algebraic law between the two arrangements of a graph-convolution layer (sum the scaled source rows over a
  node's incoming edges and then multiply by a weight column, or multiply each source row by the weight column first and
  weigh each edge by the product of its two end nodes' factors), stated over any finite edge set and feature type.
  It imports LibRealEntries (IsReal and the cast of a finite sum).

  Fix a target node with incoming edges R. Write x e j for the features of edge e's source node, d e for the
  normalisation factor of that source node, w j for one column of the weight matrix and dn for the target node's factor.
  The kernel scales the source rows, sums them over the incoming edges, multiplies by the weight column and scales by
  the target's factor last; the reference multiplies each source row by the weight column first and weighs each edge by
  d e · dn before summing. On real numbers the two are one double sum over (edge, feature) read in the two orders; on
  the extended reals the law needs every entry real, because a factor distributes over a sum only away from the
  infinities.
-/
import proofs.«142025_j41489384080024_2_alg».proof.Proof.LibRealEntries

open scoped BigOperators

namespace Cert.LibAggregateProject

open Cert.LibRealEntries

/-- Aggregate-then-project equals project-then-aggregate: for real entries,
    (Σ_j (0 + Σ_{e ∈ R} x e j · d e) · w j) · dn = 0 + Σ_{e ∈ R} (Σ_j x e j · w j) · (d e · dn). -/
theorem aggregate_project {E J : Type*} [Fintype J] (R : Finset E) (x : E → J → EReal) (d : E → EReal) (w : J → EReal)
    (dn : EReal) (hx : ∀ e j, IsReal (x e j)) (hd : ∀ e, IsReal (d e)) (hw : ∀ j, IsReal (w j)) (hdn : IsReal dn) :
    (∑ j, (0 + ∑ e ∈ R, x e j * d e) * w j) * dn = 0 + ∑ e ∈ R, (∑ j, x e j * w j) * (d e * dn) := by
  choose xr hxr using hx
  choose dr hdr using hd
  choose wr hwr using hw
  obtain ⟨dnr, rfl⟩ := hdn
  simp only [hxr, hdr, hwr, zero_add]
  simp only [← EReal.coe_mul, ← coe_sum]
  rw [EReal.coe_eq_coe_iff]
  simp only [Finset.sum_mul]
  rw [Finset.sum_comm]
  exact Finset.sum_congr rfl fun e _ => Finset.sum_congr rfl fun j _ => by ring

end Cert.LibAggregateProject
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«142025_j41489384080024_2_alg».proof.Proof.LibRowIndex
import proofs.«142025_j41489384080024_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibVecIndex.lean ====
/-
  Entries of a vector gathered and scattered at a column of positions, two vectors laid end to end, and a sum over the
  joined range split at the joint — read at coordinates.

  For a vector `x : [N]` and a column `idx : [E, 1]` of positions:
  * element `e` of the gather `x[idx]` is `x (clamp idx[e])`, the position read signed and clamped into
    `[0, N − 1]` (`gather_vec_apply`);
  * an update element `e` of an entry-wise scatter of `[E]` updates lands on entry `n` exactly when the position
    `idx[e]`, read signed, is `n` (`vecScatter_resultIdx?_eq_some_iff`): the position is not clamped;
  * hence the host's accumulating scatter, on the extended reals, is at `n` the operand there plus the sum of
    `upd e` over the updates `e` whose position is `n` (`hostScatterAdd_vec_apply`): a segment sum.
  For `x : [a]` and `y : [b]` laid end to end into `[c]`, `c = a + b`: position `p < a` reads `x p`, position
  `a + q` reads `y q` (`concatenate_vec_apply_left` / `_right`); and a sum over `Fin c` is the sum over the first
  `a` positions plus the sum over the last `b` (`sum_fin_split`; `sum_filter_fin_split` for a filtered sum).
-/
import proofs.«142025_j41489384080024_2_alg».proof.Proof.LibRowScatterSum
import Idealize.ShloMosaic.Lib.Pipeline.Value

noncomputable section

open scoped BigOperators

namespace Idealize.ShloMosaic.RowIndex

open Idealize.ShloMosaic Idealize.ShloMosaic.ValueIdx

variable (N E : Nat)

/-! ## Entries of a vector gathered at a column of positions -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`: the position read signed and clamped into
    `[0, N − 1]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 N E hN wf idx e)

/-! ## Entries scattered at a column of positions -/

/-- The dimension numbers of an entry-wise scatter of `[E]` updates into `[N]` at `idx : [E, 1]`: no window axis, the
    operand's one axis inserted and indexed. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands

variable {w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window starts at the position read signed. -/
theorem vecScatter_start :
    (vecScatter N E wf).start j idx 0 = (idx (atRow ⟨(j 0).val, (j 0).isLt⟩)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = atRow ⟨(j 0).val, (j 0).isLt⟩ := by
    funext b; refine Fin.ext ?_
    match b with
    | ⟨0, _⟩ => rfl
    | ⟨1, _⟩ => rfl
  exact congrArg (fun k => (idx k).toInt) hsi

/-- The one axis is inserted: no window coordinate. -/
theorem vecScatter_window : (vecScatter N E wf).window j 0 = 0 := by
  have hk : (0 : Fin 1) ∉ (vecScatter N E wf).sKept := by
    intro hmem
    have h2 : (0 : Fin 1) ∈ (List.finRange 1).filter (· ∉ ([0] : List (Fin 1))) := hmem
    simp at h2
  unfold ScatterDims.window
  rw [dif_neg hk]

/-- An update element `j = e` lands on `i = n` exactly when its position, read signed, is `n`. -/
theorem vecScatter_resultIdx?_eq_some_iff (i : (⟨1, ![N]⟩ : Shape).Idx) :
    (vecScatter N E wf).resultIdx? j idx = some i
      ↔ (idx (atRow ⟨(j 0).val, (j 0).isLt⟩)).toInt = ((i 0).val : Int) := by
  have hs0 := vecScatter_start N E wf idx j
  have hw0 := vecScatter_window N E wf j
  have hi0 : (i 0).val < N := (i 0).isLt
  unfold ScatterDims.resultIdx?
  split
  · rename_i hb
    constructor
    · intro h
      have h0 : ((vecScatter N E wf).start j idx 0 + ((vecScatter N E wf).window j 0 : Int)).toNat = (i 0).val :=
        congrArg (fun f => (f 0).val) (Option.some.inj h)
      have hb0 := (hb 0).1
      rw [hs0, hw0] at h0 hb0
      omega
    · intro h0
      refine congrArg some (funext fun a => Fin.ext ?_)
      match a with
      | ⟨0, _⟩ =>
        show ((vecScatter N E wf).start j idx 0 + ((vecScatter N E wf).window j 0 : Int)).toNat = (i 0).val
        rw [hs0, hw0, h0]; omega
  · rename_i hb
    constructor
    · intro h; exact absurd h (by simp)
    · intro h0
      refine absurd (fun a => ?_) hb
      match a with
      | ⟨0, _⟩ =>
        show 0 ≤ (vecScatter N E wf).start j idx 0 + ((vecScatter N E wf).window j 0 : Int)
          ∧ (vecScatter N E wf).start j idx 0 + ((vecScatter N E wf).window j 0 : Int) < (N : Int)
        rw [hs0, hw0, h0]; omega

end Lands

/-! ## The accumulating vector scatter as a segment sum -/

/-- On the extended reals the host's accumulating vector scatter is, at `n`, the operand there plus the sum of the
    updates `e` over the positions `e` sent to `n` (those whose position word, read signed, is `n`). -/
theorem hostScatterAdd_vec_apply {w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatter N E wf) x idx upd (ix1 n)
      = x (ix1 n) + ∑ e ∈ rowsTo E idx n.val, upd (ix1 e) := by
  unfold Ideal.hostScatterAdd rowsTo
  refine congrArg (x (ix1 n) + ·) ?_
  refine Finset.sum_bij' (fun j _ => (⟨(j 0).val, (j 0).isLt⟩ : Fin E)) (fun e _ => ix1 e) ?_ ?_ ?_ ?_ ?_
  · intro j hj
    have h := (vecScatter_resultIdx?_eq_some_iff N E wf idx j (ix1 n)).mp (Finset.mem_filter.mp hj).2
    exact Finset.mem_filter.mpr ⟨Finset.mem_univ _, h⟩
  · intro e he
    have h := (Finset.mem_filter.mp he).2
    exact Finset.mem_filter.mpr ⟨Finset.mem_univ _,
      (vecScatter_resultIdx?_eq_some_iff N E wf idx (ix1 e) (ix1 n)).mpr h⟩
  · intro j _
    funext a; apply Fin.ext
    match a with
    | ⟨0, _⟩ => rfl
  · intro e _
    rfl
  · intro j _
    refine congrArg upd ?_
    funext a; apply Fin.ext
    match a with
    | ⟨0, _⟩ => rfl

/-- The same for the host operation as a program prints it, `Host.scatterAdd` read on the extended reals. -/
theorem scatterAdd_vec_apply {φ : FTy} {w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = x (ix1 n) + ∑ e ∈ rowsTo E idx n.val, upd (ix1 e) :=
  hostScatterAdd_vec_apply N E wf x idx upd n

/-! ## Two vectors laid end to end -/

section Concat
variable {α : Type} {a b c : Nat}

/-- Two vectors `x : [a]`, `y : [b]` laid end to end, at a position `p < a`: the first vector at `p`. -/
theorem concatenate_vec_apply_left (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (hp : p.val < a) :
    concatenate ⟨1, ![c]⟩ 0 [⟨⟨1, ![a]⟩, x⟩, ⟨⟨1, ![b]⟩, y⟩] h (ix1 p) = x (ix1 (⟨p.val, hp⟩ : Fin a)) := by
  refine concatenate_pair_apply_left 0 x y h (ix1 p) rfl (ix1 (⟨p.val, hp⟩ : Fin a)) fun d => ?_
  match d with
  | ⟨0, _⟩ => rfl

/-- Two vectors `x : [a]`, `y : [b]` laid end to end, at the position `a + q`: the second vector at `q`. -/
theorem concatenate_vec_apply_right (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (q : Fin b)
    (hpq : p.val = a + q.val) :
    concatenate ⟨1, ![c]⟩ 0 [⟨⟨1, ![a]⟩, x⟩, ⟨⟨1, ![b]⟩, y⟩] h (ix1 p) = y (ix1 q) := by
  refine concatenate_pair_apply_right 0 x y h (ix1 p) rfl rfl (ix1 q) (fun d hd => ?_) ?_
  · match d with
    | ⟨0, _⟩ => exact absurd rfl hd
  · show q.val + a = p.val
    omega

end Concat

/-! ## A sum over a joined range, split at the joint -/

section Split
variable {M : Type*} [AddCommMonoid M] {a b c : Nat}

/-- A sum over `c = a + b` positions is the sum over the first `a` plus the sum over the last `b`. -/
theorem sum_fin_split (h : c = a + b) (f : Fin c → M) :
    ∑ i, f i = ∑ e : Fin a, f ⟨e.val, by omega⟩ + ∑ j : Fin b, f ⟨a + j.val, by omega⟩ := by
  subst h
  rw [Fin.sum_univ_add]
  rfl

/-- A filtered sum over `c = a + b` positions is the filtered sum over the first `a` plus the filtered sum over the
    last `b`. -/
theorem sum_filter_fin_split (h : c = a + b) (p : Fin c → Prop) [DecidablePred p] (f : Fin c → M) :
    ∑ i ∈ Finset.univ.filter p, f i
      = ∑ e ∈ Finset.univ.filter (fun e : Fin a => p ⟨e.val, by omega⟩), f ⟨e.val, by omega⟩
        + ∑ j ∈ Finset.univ.filter (fun j : Fin b => p ⟨a + j.val, by omega⟩), f ⟨a + j.val, by omega⟩ := by
  rw [Finset.sum_filter, sum_fin_split h, Finset.sum_filter, Finset.sum_filter]

end Split

end Idealize.ShloMosaic.RowIndex

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LayerOne.lean ====
/-
  The first graph-convolution layer, the two arrangements, entry by entry.

  Write d for the nodes' normalisation factors, s(e) for the row an edge's wrapped and clamped source names, and R(n) for
  the edges whose target, read signed, is node n (an out-of-range target lands nowhere, in both programs).
  The kernel forms the aggregate a (n, j) = Σ_{e ∈ R(n)} x (s(e), j) · d (s(e)) on the host and then, in its first region,
  max((Σ_j a (n, j) · w (j, c)) · d (n) + b (c), 0). The reference projects first, x·w, gathers the projected rows at
  the edges' sources, weighs each edge by d (s(e)) · d (t(e)) with t(e) the row its wrapped and clamped target names,
  sums into the targets, adds the bias and rectifies. For e ∈ R(n) the target's row t(e) is n itself (an in-range row
  number survives the wrap and the clamp), the factors are real numbers whatever the degrees are, and the features and
  weights are real by the precondition; so the two sides are one double sum over (edge, feature) read in the two orders
  (LibAggregateProject), and the bias and the rectifier are applied to equal arguments.
-/
import proofs.«142025_j41489384080024_2_alg».proof.Proof.Aggregate
import proofs.«142025_j41489384080024_2_alg».proof.Proof.LibAggregateProject
import proofs.«142025_j41489384080024_2_alg».proof.Proof.LibVecIndex
import proofs.«142025_j41489384080024_2_alg».proof.Proof.LibERealSum
import proofs.«142025_j41489384080024_2_alg».proof.Proof.LibColumns
import proofs.«142025_j41489384080024_2_alg».proof.Proof.LibMatmul
import proofs.«142025_j41489384080024_2_alg».proof.Proof.Matrices
import Idealize.ShloMosaic.Lib.ValueLayout

set_option maxRecDepth 16384

open scoped BigOperators

noncomputable section

namespace Cert.LayerOne

open Idealize.ShloMosaic Idealize.ShloMosaic.ValueIdx Idealize.ShloMosaic.RowIndex
open Cert.LibRealEntries Cert.Matrices Cert.ReferenceIdeal.ReadP Cert.KernelIdeal.Named

/-- A row number with jnp's negative-index wrap: a negative word has the number of rows added. -/
def wrap (w : BitVec 32) : BitVec 32 := Scalar.select (IntOp.cmpi .slt w 0#32) (IntOp.addi w 50000#32) w

/-- The row a gather reads for edge e from a column of row numbers: the word read signed, clamped into the array. -/
def rowAt (idx : IVec ⟨2, ![675000, 1]⟩ 32) (e : Fin 675000) : Fin 50000 :=
  ⟨min (idx (atRow e)).toInt.toNat (50000 - 1), Nat.lt_of_le_of_lt (Nat.min_le_right _ _) (by omega)⟩

variable (x1 : IVec ⟨2, ![2, 625000]⟩ 32)

theorem v20_at (e : Fin 675000) :
    val_main_v20 (F := Ideal) x1 (atRow e) = wrap (val_main_v3 (F := Ideal) x1 (ix1 e)) := by
  have hJ : idx_main_v20 (atRow e) = ix1 e := funext fun a => by match a with | ⟨0, _⟩ => rfl
  rw [val_main_v20_apply, hJ, val_main_v19_apply, val_main_v16_apply, val_main_v18_apply, val_main_v15_apply,
    val_main_c_apply, val_main_v17_apply, val_main_c_3_apply]
  rfl

theorem v27_at (e : Fin 675000) :
    val_main_v27 (F := Ideal) x1 (atRow e) = wrap (val_main_v6 (F := Ideal) x1 (ix1 e)) := by
  have hJ : idx_main_v27 (atRow e) = ix1 e := funext fun a => by match a with | ⟨0, _⟩ => rfl
  rw [val_main_v27_apply, hJ, val_main_v26_apply, val_main_v23_apply, val_main_v25_apply, val_main_v22_apply,
    val_main_c_4_apply, val_main_v24_apply, val_main_c_5_apply]
  rfl

theorem v42_at (e : Fin 675000) :
    val_main_v42 (F := Ideal) x1 (atRow e) = val_main_v6 (F := Ideal) x1 (ix1 e) := by
  have hJ : idx_main_v42 (atRow e) = ix1 e := funext fun a => by match a with | ⟨0, _⟩ => rfl
  rw [val_main_v42_apply, hJ]

theorem v36_at (e : Fin 675000) :
    val_main_v36 (F := Ideal) x1 (atRow e) = wrap (val_main_v3 (F := Ideal) x1 (ix1 e)) := by
  have hJ : idx_main_v36 (atRow e) = ix1 e := funext fun a => by match a with | ⟨0, _⟩ => rfl
  rw [val_main_v36_apply, hJ, val_main_v35_apply, val_main_v32_apply, val_main_v34_apply, val_main_v31_apply,
    val_main_c_6_apply, val_main_v33_apply, val_main_c_7_apply]
  rfl

/-- The two wrapped source columns (one per gather) name the same rows. -/
theorem rowAt_v36 (e : Fin 675000) :
    rowAt (val_main_v36 (F := Ideal) x1) e = rowAt (val_main_v20 (F := Ideal) x1) e :=
  Fin.ext (by
    show min (val_main_v36 (F := Ideal) x1 (atRow e)).toInt.toNat (50000 - 1)
      = min (val_main_v20 (F := Ideal) x1 (atRow e)).toInt.toNat (50000 - 1)
    rw [v36_at, v20_at])

/-- An edge whose target, read signed, is node n has n as the row its wrapped and clamped target names. -/
theorem rowAt_v27 (e : Fin 675000) (n : Fin 50000)
    (h : (val_main_v42 (F := Ideal) x1 (atRow e)).toInt = (n.val : Int)) :
    rowAt (val_main_v27 (F := Ideal) x1) e = n := by
  rw [v42_at] at h
  exact Fin.ext (by
    show min (val_main_v27 (F := Ideal) x1 (atRow e)).toInt.toNat (50000 - 1) = n.val
    rw [v27_at]
    exact wrap_clamp_of_toInt_eq _ 50000#32 n.val n.isLt h)

/-- Every normalisation factor is a real number. -/
theorem factor_real (i : (⟨1, ![50000]⟩ : Shape).Idx) : IsReal (val_main_v14 (F := Ideal) x1 i) := by
  rw [val_main_v14_apply, val_main_v12_apply, val_main_v13_apply, val_main_v11_apply, val_main_cst_1_apply,
    val_main_call0_v1_apply, val_main_call0_v0_apply, val_main_cst_2_apply]
  obtain ⟨r, -, hr⟩ := ERealSum.guarded_rsqrt_real (val_main_v10 (F := Ideal) x1 i)
  refine ⟨r, ?_⟩
  rw [← hr]
  simp only [Ideal.ofBits_def, Ideal.ofBits_zero_f32, Ideal.hostUnary_rsqrt_def]
  exact congrArg (fun b => Scalar.select b (Ideal.rsqrt (val_main_v10 (F := Ideal) x1 i)) (0 : EReal)) rfl

/-- The zero array a scatter starts from, read at an index. -/
theorem zeros_apply {s : Shape} (h : (⟨0, ![]⟩ : Shape).BroadcastsInDim s (![] : Fin 0 → Fin s.rank)) (i : s.Idx) :
    broadcastInDim s ![] h (constant (F := Ideal) ⟨0, ![]⟩ .f32 0x00000000#32) i = (0 : EReal) := by
  show Ideal.ofBits .f32 0x00000000#32 = 0
  exact Ideal.ofBits_zero_f32

variable (x0 : FVec Ideal ⟨2, ![50000, 128]⟩ .f32)

/-- The aggregate at node n, feature j: the sum, over the edges whose target is n, of the source node's feature scaled
    by the source node's factor. -/
theorem aggregate_apply (n : Fin 50000) (j : Fin 128) :
    aggregate x0 x1 (ix2 n j) = 0 + ∑ e ∈ rowsTo 675000 (val_main_v42 (F := Ideal) x1) n.val,
      x0 (ix2 (rowAt (val_main_v20 (F := Ideal) x1) e) j)
        * val_main_v14 (F := Ideal) x1 (ix1 (rowAt (val_main_v20 (F := Ideal) x1) e)) := by
  unfold aggregate
  have hrec : Cert.KernelIdeal.scatter_S50000x128_S675000x1_S675000x128_1_0_0_1
      = rowScatter 50000 128 675000 Cert.KernelIdeal.Facts₀.scatter_S50000x128_S675000x1_S675000x128_1_0_0_1_wf := rfl
  have hg : Cert.KernelIdeal.gather_S50000x128_S675000x1_S675000x128_1_0_n_n_0_1_1128
      = rowsDims 50000 128 675000 Cert.KernelIdeal.Facts₀.gather_S50000x128_S675000x1_S675000x128_1_0_n_n_0_1_1128_wf := rfl
  rw [hrec, hg, scatterAdd_rows_apply 50000 128 675000 _ _ _ _ n j, zeros_apply]
  refine congrArg (0 + ·) (Finset.sum_congr rfl fun e _ => ?_)
  rw [gather_rows_apply 50000 128 675000 (by norm_num) _ _ _ e j]
  refine congrArg (x0 (ix2 (rowAt (val_main_v20 (F := Ideal) x1) e) j) * ·) ?_
  exact (broadcastInDim_a1_ab_apply _ _ (rowAt (val_main_v20 (F := Ideal) x1) e) j).trans
    (shapeCast_a_a1_apply _ _ (rowAt (val_main_v20 (F := Ideal) x1) e) 0)

variable (x3 : FVec Ideal ⟨2, ![128, 256]⟩ .f32)

/-- The reference's aggregate at node n, column c: the sum, over the edges whose target is n, of the source node's
    projected feature weighed by the two end nodes' factors. -/
theorem v43_apply (n : Fin 50000) (c : Fin 256) :
    val_main_v43 (F := Ideal) x0 x1 x3 (ix2 n c) = 0 + ∑ e ∈ rowsTo 675000 (val_main_v42 (F := Ideal) x1) n.val,
      (∑ j : Fin 128, x0 (ix2 (rowAt (val_main_v20 (F := Ideal) x1) e) j) * x3 (ix2 j c))
        * (val_main_v14 (F := Ideal) x1 (ix1 (rowAt (val_main_v20 (F := Ideal) x1) e))
            * val_main_v14 (F := Ideal) x1 (ix1 (rowAt (val_main_v27 (F := Ideal) x1) e))) := by
  unfold val_main_v43
  have hrec : Cert.ReferenceIdeal.scatter_S50000x256_S675000x1_S675000x256_1_0_0_1
      = rowScatter 50000 256 675000 Cert.ReferenceIdeal.Facts₀.scatter_S50000x256_S675000x1_S675000x256_1_0_0_1_wf := rfl
  have hz : val_main_v41 (F := Ideal) (ix2 n c) = 0 := by
    rw [val_main_v41_apply, val_main_cst_8_apply]
    exact Ideal.ofBits_zero_f32
  rw [hrec, scatterAdd_rows_apply 50000 256 675000 _ _ _ _ n c, hz]
  refine congrArg (0 + ·) (Finset.sum_congr rfl fun e _ => ?_)
  rw [val_main_v40_apply]
  refine congrArg₂ (· * ·) ?_ ?_
  · unfold val_main_v37
    have hg : Cert.ReferenceIdeal.gather_S50000x256_S675000x1_S675000x256_1_0_n_n_0_1_1256
        = rowsDims 50000 256 675000 Cert.ReferenceIdeal.Facts₀.gather_S50000x256_S675000x1_S675000x256_1_0_n_n_0_1_1256_wf := rfl
    rw [hg, gather_rows_apply 50000 256 675000 (by norm_num) _ _ _ e c]
    show val_main_v30 (F := Ideal) x0 x3 (ix2 (rowAt (val_main_v36 (F := Ideal) x1) e) c) = _
    rw [rowAt_v36]
    unfold val_main_v30
    exact dotGeneral_ix2 Cert.ReferenceIdeal.dot_S50000x128_S128x256_S50000x256_1_0_0_1_n_n rfl rfl rfl rfl rfl rfl none .single
      x0 x3 (rowAt (val_main_v20 (F := Ideal) x1) e) c
  · have h39 : idx_main_v39 (ix2 e c) = atRow e := funext fun a => by match a with | ⟨0, _⟩ => rfl | ⟨1, _⟩ => rfl
    have h38 : idx_main_v38 (atRow e) = ix1 e := funext fun a => by match a with | ⟨0, _⟩ => rfl
    have hv : Cert.ReferenceIdeal.gather_S50000_S675000x1_S675000_n_0_n_n_0_1_1
        = vecDims 50000 675000 Cert.ReferenceIdeal.Facts₀.gather_S50000_S675000x1_S675000_n_0_n_n_0_1_1_wf := rfl
    rw [val_main_v39_apply, h39, val_main_v38_apply, h38, val_main_v29_apply]
    refine congrArg₂ (· * ·) ?_ ?_
    · unfold val_main_v21
      rw [hv, gather_vec_apply 50000 675000 (by norm_num) _ _ _ e]
      rfl
    · unfold val_main_v28
      rw [hv, gather_vec_apply 50000 675000 (by norm_num) _ _ _ e]
      rfl

/-- THE FIRST LAYER, the two arrangements: the kernel's layer function of the aggregate is the reference's rectified
    layer, entry by entry, when the features and the weights are real numbers. -/
theorem layer_eq (x4 : FVec Ideal ⟨1, ![256]⟩ .f32)
    (h1 : (⟨1, ![50000]⟩ : Shape).ShapeCasts ⟨2, ![50000, 1]⟩) (h2 : (⟨1, ![256]⟩ : Shape).ShapeCasts ⟨2, ![1, 256]⟩)
    (hx : ∀ i, IsReal (x0 i)) (hw : ∀ i, IsReal (x3 i)) :
    layerOut (aggregate x0 x1) x3 (shapeCast ⟨2, ![50000, 1]⟩ (val_main_v14 (F := Ideal) x1) h1)
        (shapeCast ⟨2, ![1, 256]⟩ x4 h2)
      = val_main_v47 (F := Ideal) x0 x1 x3 x4 := by
  funext i
  obtain ⟨n, c, rfl⟩ : ∃ (n : Fin 50000) (c : Fin 256), i = ix2 n c := ⟨i 0, i 1, eq_ix2 i⟩
  have hb : val_main_v45 (F := Ideal) x4 (ix2 n c) = x4 (ix1 c) := by
    rw [val_main_v45_apply, val_main_v44_apply]
    exact congrArg x4 (funext fun a => by match a with | ⟨0, _⟩ => rfl)
  have h0 : val_main_call1_v0 (F := Ideal) (ix2 n c) = Scalar.ofBits (F := Ideal) .f32 0x00000000#32 := by
    rw [val_main_call1_v0_apply, val_main_call1_cst_apply]
  rw [layerOut_apply _ _ _ _ _ n c rfl rfl, val_main_v47_apply, val_main_v46_apply, v43_apply, hb, h0,
    shapeCast_a_1a_apply x4 h2 0 c, shapeCast_a_a1_apply _ h1 n 0]
  refine congrArg (fun t => FloatOps.maximumf (F := Ideal) (φ := .f32)
    (FloatOps.addf (F := Ideal) (φ := .f32) t (x4 (ix1 c))) (FloatOps.ofBits (F := Ideal) .f32 0x00000000#32)) ?_
  show (∑ j : Fin 128, aggregate x0 x1 (ix2 n j) * x3 (ix2 j c)) * val_main_v14 (F := Ideal) x1 (ix1 n) = _
  rw [Finset.sum_congr rfl fun j _ => by rw [aggregate_apply x1 x0 n j],
    Cert.LibAggregateProject.aggregate_project (rowsTo 675000 (val_main_v42 (F := Ideal) x1) n.val)
      (fun e j => x0 (ix2 (rowAt (val_main_v20 (F := Ideal) x1) e) j))
      (fun e => val_main_v14 (F := Ideal) x1 (ix1 (rowAt (val_main_v20 (F := Ideal) x1) e)))
      (fun j => x3 (ix2 j c)) (val_main_v14 (F := Ideal) x1 (ix1 n))
      (fun e j => hx _) (fun e => factor_real x1 _) (fun j => hw _) (factor_real x1 _)]
  refine congrArg (0 + ·) (Finset.sum_congr rfl fun e he => ?_)
  rw [rowAt_v27 x1 e n (Finset.mem_filter.mp he).2]

end Cert.LayerOne

end
-- ==== Proof.KernelTail.lean ====
/-
  The kernel's result as the reference's last stage.

  The second region's result is the first layer's output times the second weight matrix; the first layer's output is the
  reference's rectified first layer (the two arrangements agree when the features and the first weights are real), and
  the kernel's blockwise product is the host's dot product, so the second region's array is the reference's projected
  second-layer input. From there on the two programs run the same operations: the edge weights from the factors, the
  gather, scale and scatter of the second layer, bias and rectifier, and the mean pool over the graphs. The last host
  stretch read over the region's array is therefore the reference's last stage by unfolding.
-/
import proofs.«142025_j41489384080024_2_alg».proof.Proof.KernelLeaves
import proofs.«142025_j41489384080024_2_alg».proof.Proof.LayerOne
import proofs.«142025_j41489384080024_2_alg».proof.Proof.LibMatmul

set_option maxRecDepth 16384

noncomputable section

namespace Cert.KernelIdeal.Named

open Idealize.ShloMosaic Idealize.ShloMosaic.TcCoe Idealize.SL.Sem Idealize.ShloMosaic.StableHlo
open Cert.KernelIdeal Cert.KernelIdeal.Gen Cert.Matrices
open Cert.ReferenceIdeal.ReadP

variable (m : (ℓ : Loc nD τ sig) → Buf (Elt Ideal) ℓ) (ρ : Dev nD → PrngReg)

open Idealize.ShloMosaic.ValueIdx Cert.LibRealEntries

/-- The matrix product of two arrays is the host's dot product contracting the left columns against the right rows. -/
theorem matProd_eq_dot (y : FVec Ideal ⟨2, ![50000, 256]⟩ .f32) (w : FVec Ideal ⟨2, ![256, 128]⟩ .f32) :
    matProd y w = Host.dotGeneral Cert.ReferenceIdeal.dot_S50000x256_S256x128_S50000x128_1_0_0_1_n_n none y w := by
  funext i
  obtain ⟨p, q, rfl⟩ : ∃ (p : Fin 50000) (q : Fin 128), i = ix2 p q := ⟨i 0, i 1, eq_ix2 i⟩
  rw [matProd_apply y w _ p q rfl rfl]
  exact (dotGeneral_ix2 Cert.ReferenceIdeal.dot_S50000x256_S256x128_S50000x128_1_0_0_1_n_n rfl rfl rfl rfl rfl rfl none
    .single y w p q).symm

/-- The second region's array is the reference's second-layer projection. -/
theorem W5_v30_stage (c : Dev nD) (hx : ∀ i, IsReal (m ((c : Thread nD τ).loc main_arg0) i))
    (hw : ∀ i, IsReal (m ((c : Thread nD τ).loc main_arg3) i)) :
    W5 m ρ c (Proc.devRef .tc main_v30)
      = val_main_v48 (F := Ideal) (m ((c : Thread nD τ).loc main_arg0)) (m ((c : Thread nD τ).loc main_arg1))
          (m ((c : Thread nD τ).loc main_arg3)) (m ((c : Thread nD τ).loc main_arg4)) (m ((c : Thread nD τ).loc main_arg5)) := by
  rw [W5_v30, Cert.LayerOne.layer_eq (m ((c : Thread nD τ).loc main_arg1)) (m ((c : Thread nD τ).loc main_arg0))
    (m ((c : Thread nD τ).loc main_arg3)) (m ((c : Thread nD τ).loc main_arg4)) _ _ hx hw, matProd_eq_dot]
  rfl

/-- THE KERNEL'S RESULT: the reference's last stage of the arguments. -/
theorem W6_v75 (c : Dev nD) (hx : ∀ i, IsReal (m ((c : Thread nD τ).loc main_arg0) i))
    (hw : ∀ i, IsReal (m ((c : Thread nD τ).loc main_arg3) i)) :
    W6 m ρ c (Proc.devRef .tc main_v75)
      = val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  show StableHlo.after hostOps2 (W5 m ρ c) (Proc.devRef .tc main_v75) = _
  generalize hW : W5 m ρ c = Wv
  after_results_through
  subst hW
  rw [W5_v30_stage m ρ c hx hw, W5_v14, W5_v3, W5_v6, W5_arg2, W5_arg6]
  rfl

end Cert.KernelIdeal.Named

end
-- ==== Proof.Finite.lean ====
/-
  What the precondition gives: every entry of the node features and of the first weight matrix is a real number.

  The precondition is the conjunction, over the five float arguments, of "every entry has absolute value below +inf".
  On the extended reals |x| = max x (−x) is below +inf exactly when x is neither infinity. The law that joins the
  two arrangements of the first layer distributes factors over sums, which holds on the extended reals only away from
  the infinities; it is used on the entries of the features and of the first weight matrix, so those two conjuncts are
  the ones opened here.
-/
import proofs.«142025_j41489384080024_2_alg».proof.Pre_finite_inputs
import proofs.«142025_j41489384080024_2_alg».proof.Proof.LibRealEntries
import Idealize.ShloMosaic.Lib.ReduceAll
import Idealize.ShloMosaic.Lib.ValueIdx
import Idealize.ShloMosaic.Lib.Affine
import Idealize.ShloMosaic.PureOps.Ideal

noncomputable section

namespace Cert.Finite

open Idealize.ShloMosaic Cert.LibRealEntries Cert.Pre_finite_inputs

instance : Subsingleton S_.Idx := ⟨fun a b => funext fun d => d.elim0⟩

/-- An extended real whose absolute value is below +inf is a real number. -/
theorem isReal_of_abs_lt (x : EReal) (h : Ideal.cmp .olt (max x (-x)) (Ideal.ofBits .f32 0x7F800000#32) = 1#1) : IsReal x := by
  induction x using EReal.rec with
  | bot => simp [Ideal.cmp, Ideal.ofBits, Ideal.ieee] at h
  | coe r => exact ⟨r, rfl⟩
  | top => simp [Ideal.cmp, Ideal.ofBits, Ideal.ieee] at h

theorem entries_real [Facts] (a0 : FVec Ideal S50000x128 .f32) (a1 : IVec S2x625000 32) (a2 : IVec S50000 32)
    (a3 : FVec Ideal S128x256 .f32) (a4 : FVec Ideal S256 .f32) (a5 : FVec Ideal S256x128 .f32) (a6 : FVec Ideal S128 .f32)
    (h : fn (F := Ideal) a0 a1 a2 a3 a4 a5 a6 = fun _ => 1#1) :
    (∀ i, IsReal (a0 i)) ∧ (∀ i, IsReal (a3 i)) := by
  have h0 := congrFun h ValueIdx.ix0
  dsimp only [fn, fn_part1] at h0
  obtain ⟨h1, -⟩ := IntOp.andi_eq_one.mp h0
  obtain ⟨h2, -⟩ := IntOp.andi_eq_one.mp h1
  obtain ⟨h3, -⟩ := IntOp.andi_eq_one.mp h2
  obtain ⟨hr0, hr3⟩ := IntOp.andi_eq_one.mp h3
  refine ⟨fun i => ?_, fun i => ?_⟩
  · exact isReal_of_abs_lt (a0 i) (Host.reduce_andi_all _ _ _ _ _ hr0 i)
  · exact isReal_of_abs_lt (a3 i) (Host.reduce_andi_all _ _ _ _ _ hr3 i)

end Cert.Finite

end
-- ==== Proof.lean ====
/-
  Two-layer graph convolution with a mean pool: the kernel against its jnp reference, on the extended reals.

  Both programs compute, from the edge list with self-loops appended, every node's degree and its normalisation factor
  d = (degree > 0 ? degree^(-1/2) : 0), then two graph-convolution layers with bias and rectifier, then the mean of the
  node outputs over each graph. They differ in the first layer only. The reference projects the features with the
  first weight matrix, gathers the projected rows at the edges' sources, weighs each edge by the product of its two end
  nodes' factors and sums into the targets. The kernel scales the features by the factors, gathers and sums them at the
  narrower input width, and leaves the projection, the second scaling, the bias and the rectifier to a pipelined matrix
  region; a second pipelined region multiplies by the second weight matrix, and the rest of the second layer and the
  pool are the reference's own operations.

  The proof: each region's result array is one function of the arrays it is entered with (RegionFirst, RegionSecond),
  the kernel's run ends with its result buffer at the last host stretch applied to those (KernelRun, KernelLeaves), the
  first layer's two arrangements agree entry by entry because the factors are real numbers and, by the precondition,
  so are the features and the first weights (LayerOne over LibAggregateProject, Finite), the kernel's blockwise products are
  the host's dot products, and from the second projection on the two programs are the same composition (KernelTail).
  The frames of the two kernel programs are the generated ones; the reference's frame is its run with the result
  dropped; the idealization rewrote nothing, so its conjunct is trivial.
-/
import proofs.«142025_j41489384080024_2_alg».proof.Defs
import proofs.«142025_j41489384080024_2_alg».proof.Proof.Gen.Kernel
import proofs.«142025_j41489384080024_2_alg».proof.Proof.Gen.Kernel.Skeleton
import proofs.«142025_j41489384080024_2_alg».proof.Proof.Gen.Kernel.Launch
import proofs.«142025_j41489384080024_2_alg».proof.Proof.Gen.Kernel.Points
import proofs.«142025_j41489384080024_2_alg».proof.Proof.Gen.Kernel.Frame
import proofs.«142025_j41489384080024_2_alg».proof.Proof.Gen.KernelIdeal
import proofs.«142025_j41489384080024_2_alg».proof.Proof.Gen.KernelIdeal.Skeleton
import proofs.«142025_j41489384080024_2_alg».proof.Proof.Gen.KernelIdeal.Launch
import proofs.«142025_j41489384080024_2_alg».proof.Proof.Gen.KernelIdeal.Points
import proofs.«142025_j41489384080024_2_alg».proof.Proof.Gen.KernelIdeal.Frame
import proofs.«142025_j41489384080024_2_alg».proof.Proof.Gen.ReferenceIdeal
import proofs.«142025_j41489384080024_2_alg».proof.Proof.Gen.Pre_finite_inputs
import proofs.«142025_j41489384080024_2_alg».proof.Proof.RefRun
import proofs.«142025_j41489384080024_2_alg».proof.Proof.RefRead
import proofs.«142025_j41489384080024_2_alg».proof.Proof.KernelRun
import proofs.«142025_j41489384080024_2_alg».proof.Proof.KernelTail
import proofs.«142025_j41489384080024_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with the reference's last stage of the (agreeing) arguments in their result buffers. -/
theorem algebraic : Cert.algebraic_KernelIdeal_ReferenceIdeal := by
  intro m ρ m' ρ' hpre hagree
  have hreal : ∀ c : Dev Cert.KernelIdeal.nD,
      (∀ i, Cert.LibRealEntries.IsReal ((m ((c.tc : Thread Cert.KernelIdeal.nD Cert.KernelIdeal.τ).loc Cert.KernelIdeal.main_arg0)) i))
        ∧ (∀ i, Cert.LibRealEntries.IsReal ((m ((c.tc : Thread Cert.KernelIdeal.nD Cert.KernelIdeal.τ).loc Cert.KernelIdeal.main_arg3)) i)) :=
    fun c => Cert.Finite.entries_real _ _ _ _ _ _ _ (hpre c)
  refine ⟨fun c => Cert.ReferenceIdeal.ReadP.val_main_v77 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Named.W6_v75 m ρ c (hreal c).1 (hreal c).2), (h c).2⟩)
      (Cert.KernelIdeal.Named.run_named m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6⟩ := hagree c
    rw [(h c).1, Cert.ReferenceIdeal.ReadP.val_main_v77_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
